-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v32_0)) (v1 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32_0) = v0 c
          ∧ r.2.mem ((c.tc : Thread Cert.KernelIdeal.nD Cert.KernelIdeal.τ).loc Cert.KernelIdeal.main_v41) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1x128 : Shape := ⟨2, ![1, 128]⟩
abbrev S640000 : Shape := ⟨1, ![640000]⟩
abbrev S128x128 : Shape := ⟨2, ![128, 128]⟩
abbrev S128 : Shape := ⟨1, ![128]⟩
abbrev S256x128 : Shape := ⟨2, ![256, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_

variable [Facts]

def fn_part2 {F : FTy → Type} [FloatOps F] (main_arg9 : FVec F S128 .f32) (main_arg10 : FVec F S256x128 .f32) (main_arg11 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x128 .f32 := Host.absf main_arg10
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg6 : FVec F S128x128 .f32) (main_arg7 : FVec F S128 .f32) (main_arg8 : FVec F S128x128 .f32) (main_arg9 : FVec F S128 .f32) (main_arg10 : FVec F S256x128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : FVec F S1x128 .f32) (main_arg2 : IVec S640000 32) (main_arg3 : IVec S640000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S256x128 .f32) (main_arg11 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1x128 .f32 := Host.absf main_arg1
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S1x128 : Shape := ⟨2, ![1, 128]⟩
abbrev S640000 : Shape := ⟨1, ![640000]⟩
abbrev S128x128 : Shape := ⟨2, ![128, 128]⟩
abbrev S128 : Shape := ⟨1, ![128]⟩
abbrev S256x128 : Shape := ⟨2, ![256, 128]⟩
abbrev S_ : Shape := ⟨0, ![]⟩
abbrev S100000 : Shape := ⟨1, ![100000]⟩
abbrev S640000x1 : Shape := ⟨2, ![640000, 1]⟩
abbrev S100000x1 : Shape := ⟨2, ![100000, 1]⟩
abbrev S4000x128 : Shape := ⟨2, ![4000, 128]⟩
abbrev S4000x1 : Shape := ⟨2, ![4000, 1]⟩
abbrev S640000x128 : Shape := ⟨2, ![640000, 128]⟩
abbrev S25x1x128 : Shape := ⟨3, ![25, 1, 128]⟩
abbrev S1x1x128 : Shape := ⟨3, ![1, 1, 128]⟩
abbrev S25x128 : Shape := ⟨2, ![25, 128]⟩
abbrev S1x256 : Shape := ⟨2, ![1, 256]⟩

abbrev nBuf : Space → Nat
  | .hbm => 66
  | .vmem => 21
  | .smem => 0
  | _ => 0

abbrev bufTy : (tb : Table) → Fin (tcTables nBuf tb) → BufTy
  | .hbm, ⟨0, _⟩ => ⟨S100000x128, .f32⟩
  | .hbm, ⟨1, _⟩ => ⟨S1x128, .f32⟩
  | .hbm, ⟨2, _⟩ => ⟨S640000, .i32⟩
  | .hbm, ⟨3, _⟩ => ⟨S640000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S256x128, .f32⟩
  | .hbm, ⟨11, _⟩ => ⟨S128, .f32⟩
  | .hbm, ⟨12, _⟩ => ⟨S_, .f32⟩
  | .hbm, ⟨13, _⟩ => ⟨S640000, .f32⟩
  | .hbm, ⟨14, _⟩ => ⟨S_, .f32⟩
  | .hbm, ⟨15, _⟩ => ⟨S100000, .f32⟩
  | .hbm, ⟨16, _⟩ => ⟨S640000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S640000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S1x128, .f32⟩
  | .hbm, ⟨33, _⟩ => ⟨S100000x128, .bf16⟩
  | .hbm, ⟨34, _⟩ => ⟨S_, .i32⟩
  | .hbm, ⟨35, _⟩ => ⟨S640000, .i32⟩
  | .hbm, ⟨36, _⟩ => ⟨S640000, .i1⟩
  | .hbm, ⟨37, _⟩ => ⟨S_, .i32⟩
  | .hbm, ⟨38, _⟩ => ⟨S640000, .i32⟩
  | .hbm, ⟨39, _⟩ => ⟨S640000, .i32⟩
  | .hbm, ⟨40, _⟩ => ⟨S640000, .i32⟩
  | .hbm, ⟨41, _⟩ => ⟨S640000x1, .i32⟩
  | .hbm, ⟨42, _⟩ => ⟨S640000x128, .bf16⟩
  | .hbm, ⟨43, _⟩ => ⟨S640000x128, .f32⟩
  | .hbm, ⟨44, _⟩ => ⟨S_, .f32⟩
  | .hbm, ⟨45, _⟩ => ⟨S100000x128, .f32⟩
  | .hbm, ⟨46, _⟩ => ⟨S640000x1, .i32⟩
  | .hbm, ⟨47, _⟩ => ⟨S100000x128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S100000x128, .f32⟩
  | .hbm, ⟨53, _⟩ => ⟨S25x1x128, .f32⟩
  | .hbm, ⟨54, _⟩ => ⟨S25x128, .f32⟩
  | .hbm, ⟨55, _⟩ => ⟨S_, .f32⟩
  | .hbm, ⟨56, _⟩ => ⟨S128, .f32⟩
  | .hbm, ⟨57, _⟩ => ⟨S1x128, .f32⟩
  | .hbm, ⟨58, _⟩ => ⟨S1x256, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S_, .f32⟩
  | .hbm, ⟨63, _⟩ => ⟨S1x128, .f32⟩
  | .hbm, ⟨64, _⟩ => ⟨S1x128, .f32⟩
  | .hbm, ⟨65, _⟩ => ⟨S1x128, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S1x128, .f32⟩
  | .local _ .vmem, ⟨4, _⟩ => ⟨S4000x1, .f32⟩
  | .local _ .vmem, ⟨5, _⟩ => ⟨S4000x1, .f32⟩
  | .local _ .vmem, ⟨6, _⟩ => ⟨S4000x128, .bf16⟩
  | .local _ .vmem, ⟨7, _⟩ => ⟨S4000x128, .bf16⟩
  | .local _ .vmem, ⟨8, _⟩ => ⟨S4000x128, .f32⟩
  | .local _ .vmem, ⟨9, _⟩ => ⟨S4000x128, .f32⟩
  | .local _ .vmem, ⟨10, _⟩ => ⟨S4000x1, .f32⟩
  | .local _ .vmem, ⟨11, _⟩ => ⟨S4000x1, .f32⟩
  | .local _ .vmem, ⟨12, _⟩ => ⟨S4000x128, .f32⟩
  | .local _ .vmem, ⟨13, _⟩ => ⟨S4000x128, .f32⟩
  | .local _ .vmem, ⟨14, _⟩ => ⟨S1x128, .f32⟩
  | .local _ .vmem, ⟨15, _⟩ => ⟨S128x128, .f32⟩
  | .local _ .vmem, ⟨16, _⟩ => ⟨S1x128, .f32⟩
  | .local _ .vmem, ⟨17, _⟩ => ⟨S4000x128, .f32⟩
  | .local _ .vmem, ⟨18, _⟩ => ⟨S4000x128, .f32⟩
  | .local _ .vmem, ⟨19, _⟩ => ⟨S1x1x128, .f32⟩
  | .local _ .vmem, ⟨20, _⟩ => ⟨S1x1x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32_0 : Ref sig .tc := ⟨.hbm, 52, rfl⟩
abbrev main_v32_1 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_call0_cst : Ref sig .tc := ⟨.hbm, 62, rfl⟩
abbrev main_call0_v0 : Ref sig .tc := ⟨.hbm, 63, rfl⟩
abbrev main_v40 : Ref sig .tc := ⟨.hbm, 64, rfl⟩
abbrev main_v41 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18
abbrev cc1_sem7_0 : DmaSem sig := 19
abbrev cc1_sem7_1 : DmaSem sig := 20

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x1x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  shapeCasts_S100000_S100000x1 : S100000.ShapeCasts S100000x1
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  packedbf16_S4000x128_S4000x128_0_0 : (Rect.unit (s := S4000x128) ![0, 0] S4000x128.size inb_S4000x128_S4000x128_0_0).PackedRows (EltTy.packing .bf16)
  bcast_S_S100000x128 : S_.BroadcastsInDim S100000x128 (![] : Fin 0 → Fin S100000x128.rank)
  shapeCasts_S4000x128_S4000x128 : S4000x128.ShapeCasts S4000x128
  reduces_S4000x128_S128 : S4000x128.Reduces [0] S128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  shapeCasts_S25x1x128_S25x128 : S25x1x128.ShapeCasts S25x128
  reducesTo_S25x128_S128_d0 : S25x128.ReducesTo [0] S128
  h_S_ : 0 < S_.numel
  bcast_S128_S1x128_1 : S128.BroadcastsInDim S1x128 (![1] : Fin 1 → Fin S1x128.rank)
  concatenates_S1x128_S1x128_S1x256_d1 : Shape.Concatenates [S1x128, S1x128] S1x256 1
  bcast_S_S1x128 : S_.BroadcastsInDim S1x128 (![] : Fin 0 → Fin S1x128.rank)
  scatter_S100000_S640000x1_S640000_n_0_0_1_wf : ScatterDims.WF S100000 S640000x1 S640000 [] [0] [0] 1
  dot_S4000x128_S128x128_S4000x128_1_0_0_1_n_n_wf : DotDims.WF S4000x128 S128x128 S4000x128 [1] [0] [0] [1] [] []
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S1x128_S128x128_S1x128_1_0_0_1_n_n_wf : DotDims.WF S1x128 S128x128 S1x128 [1] [0] [0] [1] [] []
  dot_S1x256_S256x128_S1x128_1_0_0_1_n_n_wf : DotDims.WF S1x256 S256x128 S1x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x1.size a ≤ S100000x1.size a
  hwx0_3 : ∀ i : grid0.Coords, EltTy.bits .f32 = 32 ∨ (Rect.block (s := S100000x1) S4000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S100000x128.size a
  hwx0_4 : ∀ i : grid0.Coords, EltTy.bits .bf16 = 32 ∨ (Rect.block (s := S100000x128) S4000x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .f32 = 32 ∨ (Rect.block (s := S100000x128) S4000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1x128.size a ≤ S25x1x128.size a
  hwx1_7 : ∀ i : grid1.Coords, EltTy.bits .f32 = 32 ∨ (Rect.block (s := S25x1x128) S1x1x128.size (cc1_transform_7 i) (hinb1_7 i)).WholeWords (EltTy.packing .f32)

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S1x256_S256x128_S1x128_1_0_0_1_n_n : DotDims S1x256 S256x128 S1x128 where
  lhsContracting := [1]
  rhsContracting := [0]
  lhsNonContracting := [0]
  rhsNonContracting := [1]
  lhsBatch := []
  rhsBatch := []
  wf := dot_S1x256_S256x128_S1x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S4000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S4000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v27) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32_0) S4000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v32_1) S1x1x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S1x128 : Shape := ⟨2, ![1, 128]⟩
abbrev S640000 : Shape := ⟨1, ![640000]⟩
abbrev S128x128 : Shape := ⟨2, ![128, 128]⟩
abbrev S128 : Shape := ⟨1, ![128]⟩
abbrev S256x128 : Shape := ⟨2, ![256, 128]⟩
abbrev S_ : Shape := ⟨0, ![]⟩
abbrev S100000 : Shape := ⟨1, ![100000]⟩
abbrev S640000x1 : Shape := ⟨2, ![640000, 1]⟩
abbrev S100000x1 : Shape := ⟨2, ![100000, 1]⟩
abbrev S640000x128 : Shape := ⟨2, ![640000, 128]⟩
abbrev S1x256 : Shape := ⟨2, ![1, 256]⟩

abbrev nBuf : Space → Nat
  | .hbm => 78
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1x128, .f32⟩
  | .hbm, ⟨2, _⟩ => ⟨S640000, .i32⟩
  | .hbm, ⟨3, _⟩ => ⟨S640000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S256x128, .f32⟩
  | .hbm, ⟨11, _⟩ => ⟨S128, .f32⟩
  | .hbm, ⟨12, _⟩ => ⟨S100000x128, .f32⟩
  | .hbm, ⟨13, _⟩ => ⟨S1x128, .f32⟩
  | .hbm, ⟨14, _⟩ => ⟨S100000x128, .f32⟩
  | .hbm, ⟨15, _⟩ => ⟨S100000x128, .f32⟩
  | .hbm, ⟨16, _⟩ => ⟨S100000x128, .f32⟩
  | .hbm, ⟨17, _⟩ => ⟨S1x128, .f32⟩
  | .hbm, ⟨18, _⟩ => ⟨S100000x128, .f32⟩
  | .hbm, ⟨19, _⟩ => ⟨S100000x128, .f32⟩
  | .hbm, ⟨20, _⟩ => ⟨S_, .f32⟩
  | .hbm, ⟨21, _⟩ => ⟨S640000, .f32⟩
  | .hbm, ⟨22, _⟩ => ⟨S_, .f32⟩
  | .hbm, ⟨23, _⟩ => ⟨S100000, .f32⟩
  | .hbm, ⟨24, _⟩ => ⟨S640000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S640000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S_, .i32⟩
  | .hbm, ⟨38, _⟩ => ⟨S640000, .i32⟩
  | .hbm, ⟨39, _⟩ => ⟨S640000, .i1⟩
  | .hbm, ⟨40, _⟩ => ⟨S_, .i32⟩
  | .hbm, ⟨41, _⟩ => ⟨S640000, .i32⟩
  | .hbm, ⟨42, _⟩ => ⟨S640000, .i32⟩
  | .hbm, ⟨43, _⟩ => ⟨S640000, .i32⟩
  | .hbm, ⟨44, _⟩ => ⟨S640000x1, .i32⟩
  | .hbm, ⟨45, _⟩ => ⟨S640000x128, .f32⟩
  | .hbm, ⟨46, _⟩ => ⟨S_, .f32⟩
  | .hbm, ⟨47, _⟩ => ⟨S100000x128, .f32⟩
  | .hbm, ⟨48, _⟩ => ⟨S640000x1, .i32⟩
  | .hbm, ⟨49, _⟩ => ⟨S100000x128, .f32⟩
  | .hbm, ⟨50, _⟩ => ⟨S_, .f32⟩
  | .hbm, ⟨51, _⟩ => ⟨S100000, .f32⟩
  | .hbm, ⟨52, _⟩ => ⟨S100000, .f32⟩
  | .hbm, ⟨53, _⟩ => ⟨S100000, .f32⟩
  | .hbm, ⟨54, _⟩ => ⟨S100000x1, .f32⟩
  | .hbm, ⟨55, _⟩ => ⟨S100000x128, .f32⟩
  | .hbm, ⟨56, _⟩ => ⟨S100000x128, .f32⟩
  | .hbm, ⟨57, _⟩ => ⟨S100000x128, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S100000x128, .f32⟩
  | .hbm, ⟨62, _⟩ => ⟨S100000x128, .f32⟩
  | .hbm, ⟨63, _⟩ => ⟨S_, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S128, .f32⟩
  | .hbm, ⟨69, _⟩ => ⟨S1x128, .f32⟩
  | .hbm, ⟨70, _⟩ => ⟨S1x256, .f32⟩
  | .hbm, ⟨71, _⟩ => ⟨S1x128, .f32⟩
  | .hbm, ⟨72, _⟩ => ⟨S1x128, .f32⟩
  | .hbm, ⟨73, _⟩ => ⟨S1x128, .f32⟩
  | .hbm, ⟨74, _⟩ => ⟨S_, .f32⟩
  | .hbm, ⟨75, _⟩ => ⟨S1x128, .f32⟩
  | .hbm, ⟨76, _⟩ => ⟨S1x128, .f32⟩
  | .hbm, ⟨77, _⟩ => ⟨S1x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c : Ref sig .tc := ⟨.hbm, 37, rfl⟩
abbrev main_v21 : Ref sig .tc := ⟨.hbm, 38, rfl⟩
abbrev main_v22 : Ref sig .tc := ⟨.hbm, 39, rfl⟩
abbrev main_c_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_call0_cst : Ref sig .tc := ⟨.hbm, 63, rfl⟩
abbrev main_call0_v0 : Ref sig .tc := ⟨.hbm, 64, rfl⟩
abbrev main_v43 : Ref sig .tc := ⟨.hbm, 65, rfl⟩
abbrev main_v44 : Ref sig .tc := ⟨.hbm, 66, rfl⟩
abbrev main_cst_6 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_call1_cst : Ref sig .tc := ⟨.hbm, 74, rfl⟩
abbrev main_call1_v0 : Ref sig .tc := ⟨.hbm, 75, rfl⟩
abbrev main_v51 : Ref sig .tc := ⟨.hbm, 76, rfl⟩
abbrev main_v52 : Ref sig .tc := ⟨.hbm, 77, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  reducesTo_S100000x128_S128_d0 : S100000x128.ReducesTo [0] S128
  h_S_ : 0 < S_.numel
  concatenates_S1x128_S1x128_S1x256_d1 : Shape.Concatenates [S1x128, S1x128] S1x256 1
  bcast_S_S1x128 : S_.BroadcastsInDim S1x128 (![] : Fin 0 → Fin S1x128.rank)
  dot_S100000x128_S128x128_S100000x128_1_0_0_1_n_n_wf : DotDims.WF S100000x128 S128x128 S100000x128 [1] [0] [0] [1] [] []
  scatter_S100000_S640000x1_S640000_n_0_0_1_wf : ScatterDims.WF S100000 S640000x1 S640000 [] [0] [0] 1
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S1x128_S128x128_S1x128_1_0_0_1_n_n_wf : DotDims.WF S1x128 S128x128 S1x128 [1] [0] [0] [1] [] []
  dot_S1x256_S256x128_S1x128_1_0_0_1_n_n_wf : DotDims.WF S1x256 S256x128 S1x128 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S1x256_S256x128_S1x128_1_0_0_1_n_n : DotDims S1x256 S256x128 S1x128 where
  lhsContracting := [1]
  rhsContracting := [0]
  lhsNonContracting := [0]
  rhsNonContracting := [1]
  lhsBatch := []
  rhsBatch := []
  wf := dot_S1x256_S256x128_S1x128_1_0_0_1_n_n_wf

class Facts : Prop extends Facts₀ where

variable [Facts]
-- ==== Proof.Whole.lean ====
/-
  The layer's run with every buffer named.

  The program is a line of segments: host operations, the first tiled region (the messages), host operations
  (gather along the edges and scatter-add into the receivers), the second tiled region (the updated nodes and
  the 25 tile sums), and three last stretches of host operations (the global update). Every weakly fair
  execution terminates, and at the end every unscoped buffer of a core holds the last boundary's contents:
  the fold of the segments' effects from the launch memory. The two results are read off that fold in the
  modules that import this one.
-/
import proofs.«118042_j6605659701677_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, and every unscoped buffer of every core ends at
    the contents the last segment leaves. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

end Cert.KernelIdeal.Whole

end
-- ==== Proof.Layer.lean ====
/-
  The mathematics of one graph-convolution layer, index by index over the extended reals.

  Nodes are rows of a [100000, 128] array. For a node r and a feature j:
  * a projection is the row's product with a [128, 128] weight plus a bias, (x · w)(r, j) + b(j);
  * the message of node r is its second projection scaled by the node's send scale;
  * the updated node is relu(first projection + aggregated messages × receive scale + global term) + x;
  * a tile sum adds the 4000 updated nodes of one of the 25 consecutive tiles, feature by feature.
-/
import Idealize.ShloMosaic.PureOps.Ideal.Laws
import Idealize.ShloMosaic.Lib.ValueIdx
import Idealize.ShloMosaic.Lib.Pipeline.Value

noncomputable section

namespace GraphLayer

open Idealize.ShloMosaic Idealize.ShloMosaic.ValueIdx

abbrev Nodes : Shape := ⟨2, ![100000, 128]⟩
abbrev Weights : Shape := ⟨2, ![128, 128]⟩
abbrev Row : Shape := ⟨2, ![1, 128]⟩
abbrev Col : Shape := ⟨2, ![100000, 1]⟩
abbrev Tiles : Shape := ⟨3, ![25, 1, 128]⟩

/-- A row of the node array times a weight matrix, plus a bias: (x · w)(r, j) + b(j). -/
def proj (x : Nodes.Idx → EReal) (w : Weights.Idx → EReal) (b : Row.Idx → EReal) (r : Fin 100000) (j : Fin 128) : EReal :=
  (∑ k : Fin 128, x (ix2 r k) * w (ix2 k j)) + b (ix2 0 j)

/-- The message a node sends: its projection times the node's send scale. -/
def message (x : Nodes.Idx → EReal) (w : Weights.Idx → EReal) (b : Row.Idx → EReal) (s : Col.Idx → EReal) : Nodes.Idx → EReal :=
  fun i => proj x w b (i 0) (i 1) * s (ix2 (i 0) 0)

/-- The updated node: relu(projection + aggregate × receive scale + global term) + the node itself. -/
def update (agg : Nodes.Idx → EReal) (s : Col.Idx → EReal) (x : Nodes.Idx → EReal) (g : Row.Idx → EReal)
    (w : Weights.Idx → EReal) (b : Row.Idx → EReal) : Nodes.Idx → EReal :=
  fun i => max ((proj x w b (i 0) (i 1) + agg i * s (ix2 (i 0) 0)) + g (ix2 0 (i 1))) (Ideal.ofBits .f32 0x00000000#32) + x i

/-- The node whose row is the q-th of tile t. -/
def tileRow (t : Fin 25) (q : Fin 4000) : Fin 100000 := ⟨4000 * t.val + q.val, by have := t.isLt; have := q.isLt; omega⟩

/-- The sum of one tile's 4000 rows, feature by feature. -/
def tileSums (h : Nodes.Idx → EReal) : Tiles.Idx → EReal :=
  fun i => ∑ q : Fin 4000, h (ix2 (tileRow (i 0) q) (i 2))

end GraphLayer

end
-- ==== Proof.Stages.lean ====
/-
  The layer's host side, stage by stage, and the contents of the buffers the two tiled regions read and write.

  Every node has a send degree and a receive degree: the number of edges leaving and entering it, counted by
  scatter-adding a one per edge into zeros. A degree scale is 1 / sqrt(max(degree, 1)), kept as a column.
  The messages (the first region's result) are gathered along the edges at the senders' rows and scatter-added
  at the receivers' rows: the aggregate. The second region turns the aggregate, the receive scales, the nodes
  and the projected globals into the updated nodes and their 25 tile sums; the last host stretch adds the tile
  sums up, joins them with the globals, projects, and adds relu of that to the globals.
-/
import proofs.«118042_j6605659701677_2_alg».proof.Proof.Whole
import proofs.«118042_j6605659701677_2_alg».proof.Proof.Layer
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

/-! ## The host stages as functions of the argument arrays -/

/-- A bias vector as a one-row matrix. -/
def rowOf (b : FVec Ideal S128 .f32) : FVec Ideal S1x128 .f32 := shapeCast S1x128 b shapeCasts_S128_S1x128

/-- 1 / sqrt(max(degree, 1)) per node, as a column; the degree counts the edges whose end is the node. -/
def degreeScale (ends : IVec S640000 32) : FVec Ideal S100000x1 .f32 :=
  shapeCast S100000x1
    (Host.rsqrt (maximumf
      (Host.scatterAdd scatter_S100000_S640000x1_S640000_n_0_0_1
        (broadcastInDim S100000 ![] bcast_S_S100000 (constant S_ .f32 0x00000000#32))
        (broadcastInDim S640000x1 ![0] bcast_S640000_S640000x1_0 ends)
        (broadcastInDim S640000 ![] bcast_S_S640000 (constant S_ .f32 0x3F800000#32)))
      (broadcastInDim S100000 ![] bcast_S_S100000 (constant S_ .f32 0x3F800000#32))))
    shapeCasts_S100000_S100000x1

/-- The row each edge gathers from: the sender, a negative one counted from the end. -/
def senderRows (snd : IVec S640000 32) : IVec S640000x1 32 :=
  broadcastInDim S640000x1 ![0] bcast_S640000_S640000x1_0
    (select (cmpi .slt snd (broadcastInDim S640000 ![] bcast_S_S640000 (constantI S_ 32 0#32)))
      (addi snd (broadcastInDim S640000 ![] bcast_S_S640000 (constantI S_ 32 100000#32))) snd)

/-- The messages gathered along the edges and added up at the receivers. -/
def aggregate (msg : FVec Ideal S100000x128 .bf16) (snd rcv : IVec S640000 32) : FVec Ideal S100000x128 .f32 :=
  Host.scatterAdd scatter_S100000x128_S640000x1_S640000x128_1_0_0_1
    (broadcastInDim S100000x128 ![] bcast_S_S100000x128 (constant S_ .f32 0x00000000#32))
    (broadcastInDim S640000x1 ![0] bcast_S640000_S640000x1_0 rcv)
    (extf .f32 (Host.gather gather_S100000x128_S640000x1_S640000x128_1_0_n_n_0_1_1128 msg (senderRows snd)) bitsLt_bf16_f32)

/-- The globals projected: g · w + b, one row. -/
def globalTerm (g : FVec Ideal S1x128 .f32) (w : FVec Ideal S128x128 .f32) (b : FVec Ideal S128 .f32) : FVec Ideal S1x128 .f32 :=
  addf (Host.dotGeneral dot_S1x128_S128x128_S1x128_1_0_0_1_n_n none g w) (rowOf b)

/-- The 25 tile sums added up, feature by feature. -/
def nodeSum (parts : FVec Ideal S25x1x128 .f32) : FVec Ideal S128 .f32 :=
  Host.reduceAdd (shapeCast S25x128 parts shapeCasts_S25x1x128_S25x128) (constant S_ .f32 0x00000000#32) reducesTo_S25x128_S128_d0 h_S_

/-- The updated globals from the node sum: g + relu([sum, g] · w + b). -/
def globalUpdate (total : FVec Ideal S128 .f32) (g : FVec Ideal S1x128 .f32) (w : FVec Ideal S256x128 .f32) (b : FVec Ideal S128 .f32) : FVec Ideal S1x128 .f32 :=
  addf g (maximumf
    (addf (Host.dotGeneral dot_S1x256_S256x128_S1x128_1_0_0_1_n_n none
        (concatenate S1x256 1 [⟨S1x128, broadcastInDim S1x128 ![1] bcast_S128_S1x128_1 total⟩, ⟨S1x128, g⟩] concatenates_S1x128_S1x128_S1x256_d1) w)
      (rowOf b))
    (broadcastInDim S1x128 ![] bcast_S_S1x128 (constant S_ .f32 0x00000000#32)))

variable (m : (ℓ : Loc nD τ sig) → Buf (Elt Ideal) ℓ) (ρ : Dev nD → PrngReg) (c : Dev nD)

local macro "through_host" : tactic => `(tactic| (show StableHlo.after _ _ _ = _; after_results; try rfl))

/-! ## Entering the first region: the nodes, the second weights, their bias as a row, the send scales -/

theorem in0_nodes : V1 m ρ c main_arg0 = m ((c : Thread nD τ).loc main_arg0) := by through_host
theorem in0_weights : V1 m ρ c main_arg6 = m ((c : Thread nD τ).loc main_arg6) := by through_host
theorem in0_bias : V1 m ρ c main_v15 = rowOf (m ((c : Thread nD τ).loc main_arg7)) := by through_host
theorem in0_scale : V1 m ρ c main_v10 = degreeScale (m ((c : Thread nD τ).loc main_arg2)) := by through_host

/-! ## What the first region leaves alone -/

theorem keep0_nodes : W2 m ρ c (Proc.devRef .tc main_arg0) = m ((c : Thread nD τ).loc main_arg0) :=
  (W2_arr m ρ c 0).trans (((dat0 (V1 m ρ) c).arrAt_in 0 rfl _).trans ((A_eq0 (V1 m ρ) c 0).trans (in0_nodes m ρ c)))
theorem keep0_globals : W2 m ρ c (Proc.devRef .tc main_arg1) = m ((c : Thread nD τ).loc main_arg1) :=
  (W2_of_ne m ρ c main_arg1 (by decide)).trans (by through_host)
theorem keep0_senders : W2 m ρ c (Proc.devRef .tc main_arg2) = m ((c : Thread nD τ).loc main_arg2) :=
  (W2_of_ne m ρ c main_arg2 (by decide)).trans (by through_host)
theorem keep0_receivers : W2 m ρ c (Proc.devRef .tc main_arg3) = m ((c : Thread nD τ).loc main_arg3) :=
  (W2_of_ne m ρ c main_arg3 (by decide)).trans (by through_host)
theorem keep0_w1 : W2 m ρ c (Proc.devRef .tc main_arg4) = m ((c : Thread nD τ).loc main_arg4) :=
  (W2_of_ne m ρ c main_arg4 (by decide)).trans (by through_host)
theorem keep0_b1 : W2 m ρ c (Proc.devRef .tc main_arg5) = m ((c : Thread nD τ).loc main_arg5) :=
  (W2_of_ne m ρ c main_arg5 (by decide)).trans (by through_host)
theorem keep0_w3 : W2 m ρ c (Proc.devRef .tc main_arg8) = m ((c : Thread nD τ).loc main_arg8) :=
  (W2_of_ne m ρ c main_arg8 (by decide)).trans (by through_host)
theorem keep0_b3 : W2 m ρ c (Proc.devRef .tc main_arg9) = m ((c : Thread nD τ).loc main_arg9) :=
  (W2_of_ne m ρ c main_arg9 (by decide)).trans (by through_host)
theorem keep0_wg : W2 m ρ c (Proc.devRef .tc main_arg10) = m ((c : Thread nD τ).loc main_arg10) :=
  (W2_of_ne m ρ c main_arg10 (by decide)).trans (by through_host)
theorem keep0_bg : W2 m ρ c (Proc.devRef .tc main_arg11) = m ((c : Thread nD τ).loc main_arg11) :=
  (W2_of_ne m ρ c main_arg11 (by decide)).trans (by through_host)
theorem keep0_scale : W2 m ρ c (Proc.devRef .tc main_v14) = degreeScale (m ((c : Thread nD τ).loc main_arg3)) :=
  (W2_of_ne m ρ c main_v14 (by decide)).trans (by through_host)

/-! ## Entering the second region: the aggregate, the receive scales, the nodes, the projected globals, the
    first weights and their bias as a row -/

theorem in1_aggregate : V3 m ρ c main_v27
    = aggregate (W2 m ρ c (Proc.devRef .tc main_v16)) (m ((c : Thread nD τ).loc main_arg2)) (m ((c : Thread nD τ).loc main_arg3)) := by
  show StableHlo.after hostOps1 _ _ = _
  after_results
  rw [keep0_senders m ρ c, keep0_receivers m ρ c]
  rfl
theorem in1_scale : V3 m ρ c main_v14 = degreeScale (m ((c : Thread nD τ).loc main_arg3)) := by
  show StableHlo.after hostOps1 _ _ = _
  after_results
  exact keep0_scale m ρ c
theorem in1_nodes : V3 m ρ c main_arg0 = m ((c : Thread nD τ).loc main_arg0) := by
  show StableHlo.after hostOps1 _ _ = _
  after_results
  exact keep0_nodes m ρ c
theorem in1_global : V3 m ρ c main_v30
    = globalTerm (m ((c : Thread nD τ).loc main_arg1)) (m ((c : Thread nD τ).loc main_arg8)) (m ((c : Thread nD τ).loc main_arg9)) := by
  show StableHlo.after hostOps1 _ _ = _
  after_results
  rw [keep0_globals m ρ c, keep0_w3 m ρ c, keep0_b3 m ρ c]
  rfl
theorem in1_weights : V3 m ρ c main_arg4 = m ((c : Thread nD τ).loc main_arg4) := by
  show StableHlo.after hostOps1 _ _ = _
  after_results
  exact keep0_w1 m ρ c
theorem in1_bias : V3 m ρ c main_v31 = rowOf (m ((c : Thread nD τ).loc main_arg5)) := by
  show StableHlo.after hostOps1 _ _ = _
  after_results
  rw [keep0_b1 m ρ c]
  rfl

/-! ## What the second region leaves alone -/

theorem keep1_globals : W4 m ρ c (Proc.devRef .tc main_arg1) = m ((c : Thread nD τ).loc main_arg1) :=
  (W4_of_ne m ρ c main_arg1 (by decide)).trans (by
    show StableHlo.after hostOps1 _ _ = _
    after_results
    exact keep0_globals m ρ c)
theorem keep1_wg : W4 m ρ c (Proc.devRef .tc main_arg10) = m ((c : Thread nD τ).loc main_arg10) :=
  (W4_of_ne m ρ c main_arg10 (by decide)).trans (by
    show StableHlo.after hostOps1 _ _ = _
    after_results
    exact keep0_wg m ρ c)
theorem keep1_bg : W4 m ρ c (Proc.devRef .tc main_arg11) = m ((c : Thread nD τ).loc main_arg11) :=
  (W4_of_ne m ρ c main_arg11 (by decide)).trans (by
    show StableHlo.after hostOps1 _ _ = _
    after_results
    exact keep0_bg m ρ c)

/-! ## The two results after the last host stretches -/

theorem out_nodes : W7 m ρ c (Proc.devRef .tc main_v32_0) = W4 m ρ c (Proc.devRef .tc main_v32_0) := by
  show StableHlo.after hostOps2_2 (StableHlo.after hostOps2_1 (StableHlo.after hostOps2 _)) _ = _
  after_results

theorem out_globals : W7 m ρ c (Proc.devRef .tc main_v41)
    = globalUpdate (nodeSum (W4 m ρ c (Proc.devRef .tc main_v32_1))) (m ((c : Thread nD τ).loc main_arg1))
        (m ((c : Thread nD τ).loc main_arg10)) (m ((c : Thread nD τ).loc main_arg11)) := by
  show StableHlo.after hostOps2_2 (StableHlo.after hostOps2_1 (StableHlo.after hostOps2 _)) _ = _
  after_results
  rw [keep1_globals m ρ c, keep1_wg m ρ c, keep1_bg m ρ c]
  rfl

end Cert.KernelIdeal.Whole

end
-- ==== Proof.RefLayer.lean ====
/-
  The reference layer read at an index, as the same functions of a row and a feature the tiled layer is written in.

  The reference's messages are, at row r and feature j, ((x · w2)(r, j) + b2(j)) · sendScale(r); its updated nodes are
  relu(((x · w1)(r, j) + b1(j)) + aggregate(r, j) · recvScale(r) + global(j)) + x(r, j), with the bias, the scales
  and the projected globals broadcast along rows or features; its node sum adds all 100000 rows at once.
-/
import proofs.«118042_j6605659701677_2_alg».proof.Proof.Gen.ReferenceIdeal.Read
import proofs.«118042_j6605659701677_2_alg».proof.Proof.Layer
import Idealize.ShloMosaic.Lib.Pipeline.Value
import Idealize.ShloMosaic.Lib.ValueIdx
import Idealize.ShloMosaic.PureOps.Ideal.Laws

noncomputable section

namespace Cert.ReferenceIdeal.Layer

open Cert.ReferenceIdeal Cert.ReferenceIdeal.Gen Cert.ReferenceIdeal.Read Idealize.ShloMosaic Idealize.ShloMosaic.TcCoe
open Idealize.ShloMosaic.ValueIdx

/-! ## The composed index maps are the plain coordinates -/

theorem row_of_dot (i : S100000x128.Idx) (k : Fin 128) : lidx_main_v0 i k = ix2 (i 0) k :=
  funext fun a => by match a with | ⟨0, _⟩ => rfl | ⟨1, _⟩ => rfl
theorem col_of_dot (i : S100000x128.Idx) (k : Fin 128) : ridx_main_v0 i k = ix2 k (i 1) :=
  funext fun a => by match a with | ⟨0, _⟩ => rfl | ⟨1, _⟩ => rfl
theorem along_rows (i : S100000x128.Idx) : idx_main_v2 i = ix2 0 (i 1) :=
  funext fun a => by match a with | ⟨0, _⟩ => rfl | ⟨1, _⟩ => rfl
theorem along_features (i : S100000x128.Idx) : idx_main_v19 i = ix2 (i 0) 0 :=
  funext fun a => by match a with | ⟨0, _⟩ => rfl | ⟨1, _⟩ => rfl

/-! ## The messages and the updated nodes -/

/-- The reference's messages are the layer's, with the bias as a row and the send scale as a column. -/
theorem messages (x0 : (⟨S100000x128, .f32⟩ : BufTy).Contents (Elt Ideal)) (x2 : (⟨S640000, .i32⟩ : BufTy).Contents (Elt Ideal))
    (x6 : (⟨S128x128, .f32⟩ : BufTy).Contents (Elt Ideal)) (x7 : (⟨S128, .f32⟩ : BufTy).Contents (Elt Ideal)) :
    val_main_v20 (F := Ideal) x0 x2 x6 x7
      = GraphLayer.message x0 x6 (val_main_v5 (F := Ideal) x7) (val_main_v18 (F := Ideal) x2) := by
  funext i
  rw [val_main_v20_apply, val_main_v7_apply, val_main_v4_apply, val_main_v6_apply, val_main_v19_apply]
  unfold GraphLayer.message GraphLayer.proj
  simp only [show ∀ k, lidx_main_v4 i k = ix2 (i 0) k from row_of_dot i, show ∀ k, ridx_main_v4 i k = ix2 k (i 1) from col_of_dot i,
    show idx_main_v6 i = ix2 0 (i 1) from along_rows i, along_features i]
  rfl

/-- The reference's updated nodes are the layer's, of its own aggregate, receive scale, projected globals and bias row. -/
theorem updated (x0 : (⟨S100000x128, .f32⟩ : BufTy).Contents (Elt Ideal)) (x1 : (⟨S1x128, .f32⟩ : BufTy).Contents (Elt Ideal))
    (x2 x3 : (⟨S640000, .i32⟩ : BufTy).Contents (Elt Ideal)) (x4 : (⟨S128x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (x8 : (⟨S128x128, .f32⟩ : BufTy).Contents (Elt Ideal))
    (x9 : (⟨S128, .f32⟩ : BufTy).Contents (Elt Ideal)) :
    val_main_v44 (F := Ideal) x0 x1 x2 x3 x4 x5 x6 x7 x8 x9
      = GraphLayer.update (val_main_v30 (F := Ideal) x0 x2 x3 x6 x7) (val_main_v34 (F := Ideal) x3) x0
          (val_main_v40 (F := Ideal) x1 x8 x9) x4 (val_main_v1 (F := Ideal) x5) := by
  funext i
  rw [val_main_v44_apply, val_main_v43_apply, val_main_v42_apply, val_main_v41_apply, val_main_v37_apply, val_main_v36_apply,
    val_main_v35_apply, val_main_v3_apply, val_main_v2_apply, val_main_v0_apply, val_main_call0_v0_apply, val_main_call0_cst_apply]
  unfold GraphLayer.update GraphLayer.proj
  simp only [row_of_dot i, col_of_dot i, along_rows i, show idx_main_v35 i = ix2 (i 0) 0 from along_features i,
    show idx_main_v41 i = ix2 0 (i 1) from along_rows i]
  rfl

/-- The reference's node sum: zero plus the sum of all 100000 rows, feature by feature. -/
theorem node_sum (x0 : (⟨S100000x128, .f32⟩ : BufTy).Contents (Elt Ideal)) (x1 : (⟨S1x128, .f32⟩ : BufTy).Contents (Elt Ideal))
    (x2 x3 : (⟨S640000, .i32⟩ : BufTy).Contents (Elt Ideal)) (x4 : (⟨S128x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (x8 : (⟨S128x128, .f32⟩ : BufTy).Contents (Elt Ideal))
    (x9 : (⟨S128, .f32⟩ : BufTy).Contents (Elt Ideal)) (j : S128.Idx) :
    val_main_v45 (F := Ideal) x0 x1 x2 x3 x4 x5 x6 x7 x8 x9 j
      = Ideal.ofBits .f32 0x00000000#32
        + ∑ k : Fin 100000, val_main_v44 (F := Ideal) x0 x1 x2 x3 x4 x5 x6 x7 x8 x9 (ix2 k (j 0)) := by
  rw [val_main_v45_apply]
  refine congrArg₂ (· + ·) rfl (Finset.sum_congr rfl fun k _ => congrArg _ ?_)
  exact funext fun a => by match a with | ⟨0, _⟩ => rfl | ⟨1, _⟩ => rfl

end Cert.ReferenceIdeal.Layer

end
-- ==== Proof.LibBlockSum.lean ====
/-
  A finite sum over n = a · b consecutive naturals, taken block by block: the outer sum runs over the a blocks,
  the inner one over the b places inside a block, the k-th summand being the one at place k mod b of block k / b.
  Only commutativity and associativity of the addition are used, so it holds in any commutative additive monoid —
  the extended reals with their addition among them.
-/
import Mathlib

namespace LibBlockSum

/-- The sum over `Fin n`, `n = a * b`, is the sum over the `a` blocks of the sums over each block's `b` places. -/
theorem sum_blocks {M : Type*} [AddCommMonoid M] {n : ℕ} (a b : ℕ) (h : n = a * b) (f : Fin n → M) :
    ∑ k : Fin n, f k
      = ∑ t : Fin a, ∑ q : Fin b, f ⟨b * t.val + q.val, by
          have := t.isLt; have := q.isLt
          calc b * t.val + q.val < b * t.val + b := by omega
            _ = b * (t.val + 1) := by ring
            _ ≤ b * a := Nat.mul_le_mul_left _ (by omega)
            _ = n := by rw [h, Nat.mul_comm]⟩ := by
  subst h
  rw [← (finProdFinEquiv (m := a) (n := b)).sum_comp, Fintype.sum_prod_type]
  refine Finset.sum_congr rfl fun t _ => Finset.sum_congr rfl fun q _ => ?_
  refine congrArg f (Fin.ext ?_)
  show q.val + b * t.val = b * t.val + q.val
  omega

end LibBlockSum
-- ==== Proof.Bridge.lean ====
/-
  The tiled layer and the reference layer are one function of the argument arrays.

  Both compute, per node r and feature j, relu((x · w1 + b1) + aggregate · recvScale + global) + x, where the aggregate
  scatter-adds, at the receivers, the messages ((x · w2 + b2) · sendScale) gathered at the senders. They differ in how
  a bias or a scale is laid out (a reshape to a row or column against a broadcast along the other axis) and in how the
  updated nodes are added up for the global update: 25 tile sums of 4000 rows each, then their sum, against one sum
  over all 100000 rows. A sum over consecutive blocks is the sum over everything by commutativity and associativity
  alone, which the extended reals' addition has; no argument needs to be finite.
-/
import proofs.«118042_j6605659701677_2_alg».proof.Proof.Stages
import proofs.«118042_j6605659701677_2_alg».proof.Proof.RefLayer
import proofs.«118042_j6605659701677_2_alg».proof.Proof.LibBlockSum
import Idealize.ShloMosaic.Lib.ValueLayout

noncomputable section

namespace Cert.Layer

open Idealize.ShloMosaic Idealize.ShloMosaic.ValueIdx
open Cert.KernelIdeal.Whole (rowOf degreeScale senderRows aggregate globalTerm nodeSum globalUpdate)
open Cert.ReferenceIdeal.Read

/-! ## The tiled layer's two results as functions of the argument arrays -/

/-- The updated nodes, from the tiled layer's stages. -/
def newNodes (x0 : FVec Ideal Cert.KernelIdeal.S100000x128 .f32) (x1 : FVec Ideal Cert.KernelIdeal.S1x128 .f32)
    (x2 x3 : IVec Cert.KernelIdeal.S640000 32) (x4 : FVec Ideal Cert.KernelIdeal.S128x128 .f32) (x5 : FVec Ideal Cert.KernelIdeal.S128 .f32)
    (x6 : FVec Ideal Cert.KernelIdeal.S128x128 .f32) (x7 : FVec Ideal Cert.KernelIdeal.S128 .f32)
    (x8 : FVec Ideal Cert.KernelIdeal.S128x128 .f32) (x9 : FVec Ideal Cert.KernelIdeal.S128 .f32) : FVec Ideal Cert.KernelIdeal.S100000x128 .f32 :=
  GraphLayer.update (aggregate (GraphLayer.message x0 x6 (rowOf x7) (degreeScale x2)) x2 x3) (degreeScale x3) x0
    (globalTerm x1 x8 x9) x4 (rowOf x5)

/-- The updated globals, from the 25 tile sums of the updated nodes. -/
def newGlobals (x0 : FVec Ideal Cert.KernelIdeal.S100000x128 .f32) (x1 : FVec Ideal Cert.KernelIdeal.S1x128 .f32)
    (x2 x3 : IVec Cert.KernelIdeal.S640000 32) (x4 : FVec Ideal Cert.KernelIdeal.S128x128 .f32) (x5 : FVec Ideal Cert.KernelIdeal.S128 .f32)
    (x6 : FVec Ideal Cert.KernelIdeal.S128x128 .f32) (x7 : FVec Ideal Cert.KernelIdeal.S128 .f32)
    (x8 : FVec Ideal Cert.KernelIdeal.S128x128 .f32) (x9 : FVec Ideal Cert.KernelIdeal.S128 .f32)
    (x10 : FVec Ideal Cert.KernelIdeal.S256x128 .f32) (x11 : FVec Ideal Cert.KernelIdeal.S128 .f32) : FVec Ideal Cert.KernelIdeal.S1x128 .f32 :=
  globalUpdate (nodeSum (GraphLayer.tileSums (newNodes x0 x1 x2 x3 x4 x5 x6 x7 x8 x9))) x1 x10 x11

/-! ## Layouts: a reshape to a row or a column is the broadcast along the new axis -/

/-- A vector reshaped to one row is the vector broadcast along a new leading axis of extent one. -/
theorem row_bcast (b : FVec Ideal Cert.KernelIdeal.S128 .f32) : rowOf b = val_main_v1 (F := Ideal) b := by
  funext i
  obtain ⟨u, j, rfl⟩ : ∃ (u : Fin 1) (j : Fin 128), i = ix2 u j := ⟨i 0, i 1, eq_ix2 i⟩
  unfold rowOf
  rw [shapeCast_a_1a_apply b _ u j, val_main_v1_apply]
  exact congrArg b (funext fun a => by match a with | ⟨0, _⟩ => rfl)

/-- A vector reshaped to one column reads, at row r, the vector at r. -/
theorem col_read (y : FVec Ideal Cert.KernelIdeal.S100000 .f32) (h : Cert.KernelIdeal.S100000.ShapeCasts Cert.KernelIdeal.S100000x1)
    (r : Fin 100000) (u : Fin 1) : shapeCast Cert.KernelIdeal.S100000x1 y h (ix2 r u) = y (ix1 r) := by
  have hu : u.val = 0 := by omega
  refine shapeCast_apply y h (ix2 r u) (ix1 r) ?_
  rw [Shape.rowMajor_val_one, Shape.rowMajor_val_two]
  show r.val = r.val * 1 + u.val
  omega

/-- The send scale column is the reference's: its scale vector broadcast along a trailing axis of extent one. -/
theorem send_scale (e : IVec Cert.KernelIdeal.S640000 32) : degreeScale e = val_main_v18 (F := Ideal) e := by
  funext i
  obtain ⟨r, u, rfl⟩ : ∃ (r : Fin 100000) (u : Fin 1), i = ix2 r u := ⟨i 0, i 1, eq_ix2 i⟩
  unfold degreeScale
  rw [col_read, val_main_v18_apply]
  show val_main_v17 (F := Ideal) e (ix1 r) = _
  exact congrArg (val_main_v17 (F := Ideal) e) (funext fun a => by match a with | ⟨0, _⟩ => rfl)

/-- The receive scale column is the reference's. -/
theorem recv_scale (e : IVec Cert.KernelIdeal.S640000 32) : degreeScale e = val_main_v34 (F := Ideal) e := by
  funext i
  obtain ⟨r, u, rfl⟩ : ∃ (r : Fin 100000) (u : Fin 1), i = ix2 r u := ⟨i 0, i 1, eq_ix2 i⟩
  unfold degreeScale
  rw [col_read, val_main_v34_apply]
  show val_main_v33 (F := Ideal) e (ix1 r) = _
  exact congrArg (val_main_v33 (F := Ideal) e) (funext fun a => by match a with | ⟨0, _⟩ => rfl)

/-! ## The stages agree -/

/-- The aggregate of the tiled layer's messages is the reference's aggregate. -/
theorem aggregate_agrees (x0 : FVec Ideal Cert.KernelIdeal.S100000x128 .f32) (x2 x3 : IVec Cert.KernelIdeal.S640000 32)
    (x6 : FVec Ideal Cert.KernelIdeal.S128x128 .f32) (x7 : FVec Ideal Cert.KernelIdeal.S128 .f32) :
    aggregate (GraphLayer.message x0 x6 (rowOf x7) (degreeScale x2)) x2 x3 = val_main_v30 (F := Ideal) x0 x2 x3 x6 x7 := by
  have hm : GraphLayer.message x0 x6 (rowOf x7) (degreeScale x2) = val_main_v20 (F := Ideal) x0 x2 x6 x7 := by
    rw [Cert.ReferenceIdeal.Layer.messages, row_bcast x7, send_scale x2]
    rfl
  rw [hm]
  rfl

/-- The projected globals are the reference's. -/
theorem global_agrees (x1 : FVec Ideal Cert.KernelIdeal.S1x128 .f32) (x8 : FVec Ideal Cert.KernelIdeal.S128x128 .f32)
    (x9 : FVec Ideal Cert.KernelIdeal.S128 .f32) : globalTerm x1 x8 x9 = val_main_v40 (F := Ideal) x1 x8 x9 := by
  unfold globalTerm
  rw [row_bcast x9]
  rfl

/-- The updated nodes of the tiled layer are the reference's. -/
theorem nodes_agree (x0 : FVec Ideal Cert.KernelIdeal.S100000x128 .f32) (x1 : FVec Ideal Cert.KernelIdeal.S1x128 .f32)
    (x2 x3 : IVec Cert.KernelIdeal.S640000 32) (x4 : FVec Ideal Cert.KernelIdeal.S128x128 .f32) (x5 : FVec Ideal Cert.KernelIdeal.S128 .f32)
    (x6 : FVec Ideal Cert.KernelIdeal.S128x128 .f32) (x7 : FVec Ideal Cert.KernelIdeal.S128 .f32)
    (x8 : FVec Ideal Cert.KernelIdeal.S128x128 .f32) (x9 : FVec Ideal Cert.KernelIdeal.S128 .f32) :
    newNodes x0 x1 x2 x3 x4 x5 x6 x7 x8 x9 = val_main_v44 (F := Ideal) x0 x1 x2 x3 x4 x5 x6 x7 x8 x9 := by
  rw [Cert.ReferenceIdeal.Layer.updated]
  unfold newNodes
  rw [aggregate_agrees, recv_scale x3, global_agrees, row_bcast x5]

/-! ## The node sum: 25 tile sums added up are the sum over all rows -/

/-- The 25 parts added up: zero plus their sum, feature by feature. -/
theorem node_sum_parts (parts : FVec Ideal Cert.KernelIdeal.S25x1x128 .f32) (j : Cert.KernelIdeal.S128.Idx) :
    nodeSum parts j = Ideal.ofBits .f32 0x00000000#32 + ∑ t : Fin 25, parts (ix3 t 0 (j 0)) := by
  unfold nodeSum
  simp only [Host.reduceAdd, Ideal.hostReduceAdd_def]
  rw [Ideal.hostReduceAdd_single _ (by decide : Cert.KernelIdeal.S25x128.Reduces [0] Cert.KernelIdeal.S128)]
  refine congrArg₂ (· + ·) rfl (Finset.sum_congr rfl fun t _ => ?_)
  refine shapeCast_apply parts _ _ (ix3 t 0 (j 0)) ?_
  rw [Shape.rowMajor_val_three, Shape.rowMajor_val_two]
  show (t.val * 1 + 0) * 128 + (j 0).val = t.val * 128 + (j 0).val
  omega

/-- The tile sums added up: zero plus, over the 25 tiles, the sum of the tile's 4000 rows. -/
theorem tile_sums_total (h : FVec Ideal Cert.KernelIdeal.S100000x128 .f32) (j : Cert.KernelIdeal.S128.Idx) :
    nodeSum (GraphLayer.tileSums h) j
      = Ideal.ofBits .f32 0x00000000#32 + ∑ t : Fin 25, ∑ q : Fin 4000, h (ix2 (GraphLayer.tileRow t q) (j 0)) := by
  rw [node_sum_parts]
  rfl

/-- The node sum of the tiled layer is the reference's: the 100000 rows are the 25 tiles of 4000 consecutive rows. -/
theorem node_sum_agrees (x0 : FVec Ideal Cert.KernelIdeal.S100000x128 .f32) (x1 : FVec Ideal Cert.KernelIdeal.S1x128 .f32)
    (x2 x3 : IVec Cert.KernelIdeal.S640000 32) (x4 : FVec Ideal Cert.KernelIdeal.S128x128 .f32) (x5 : FVec Ideal Cert.KernelIdeal.S128 .f32)
    (x6 : FVec Ideal Cert.KernelIdeal.S128x128 .f32) (x7 : FVec Ideal Cert.KernelIdeal.S128 .f32)
    (x8 : FVec Ideal Cert.KernelIdeal.S128x128 .f32) (x9 : FVec Ideal Cert.KernelIdeal.S128 .f32) :
    nodeSum (GraphLayer.tileSums (newNodes x0 x1 x2 x3 x4 x5 x6 x7 x8 x9)) = val_main_v45 (F := Ideal) x0 x1 x2 x3 x4 x5 x6 x7 x8 x9 := by
  funext j
  rw [tile_sums_total, Cert.ReferenceIdeal.Layer.node_sum, nodes_agree,
    LibBlockSum.sum_blocks 25 4000 rfl (fun k : Fin 100000 => val_main_v44 (F := Ideal) x0 x1 x2 x3 x4 x5 x6 x7 x8 x9 (ix2 k (j 0)))]
  rfl

/-- The updated globals of the tiled layer are the reference's. -/
theorem globals_agree (x0 : FVec Ideal Cert.KernelIdeal.S100000x128 .f32) (x1 : FVec Ideal Cert.KernelIdeal.S1x128 .f32)
    (x2 x3 : IVec Cert.KernelIdeal.S640000 32) (x4 : FVec Ideal Cert.KernelIdeal.S128x128 .f32) (x5 : FVec Ideal Cert.KernelIdeal.S128 .f32)
    (x6 : FVec Ideal Cert.KernelIdeal.S128x128 .f32) (x7 : FVec Ideal Cert.KernelIdeal.S128 .f32)
    (x8 : FVec Ideal Cert.KernelIdeal.S128x128 .f32) (x9 : FVec Ideal Cert.KernelIdeal.S128 .f32)
    (x10 : FVec Ideal Cert.KernelIdeal.S256x128 .f32) (x11 : FVec Ideal Cert.KernelIdeal.S128 .f32) :
    newGlobals x0 x1 x2 x3 x4 x5 x6 x7 x8 x9 x10 x11 = val_main_v52 (F := Ideal) x0 x1 x2 x3 x4 x5 x6 x7 x8 x9 x10 x11 := by
  unfold newGlobals globalUpdate
  rw [node_sum_agrees, row_bcast x11]
  rfl

end Cert.Layer

end
-- ==== Proof.Messages.lean ====
/-
  Region 0: the messages.

  The first grid of 25 points walks the [100000, 128] node array in tiles of 4000 rows. At point t the body
  reads tile t of the nodes and of the send scale, the whole weight matrix and the whole bias row, and stores
  into tile t of the output the block whose entry at row p and feature j is
      ((∑ k, nodes(4000 t + p, k) · w(k, j)) + b(0, j)) · scale(4000 t + p, 0)
  (the roundings to bf16 are the identity over the extended reals). The 25 tiles cover the array, so after
  the region the output array is GraphLayer.message of the four arrays as the region finds them.

  Steps: the stored block read at an index (payload_apply); the printed index maps decided over the grid
  (block_indices); what a point writes back is its block of the message function (flushed_eq); the tiles
  cover the array (covered); the whole-array statement (messages).
-/
import proofs.«118042_j6605659701677_2_alg».proof.Proof.Gen.KernelIdeal.Frame
import proofs.«118042_j6605659701677_2_alg».proof.Proof.Layer
import Idealize.ShloMosaic.Lib.Pipeline.Value
import Idealize.ShloMosaic.Lib.ValueIdx
import Idealize.ShloMosaic.Lib.ValueLayout
import Idealize.ShloMosaic.PureOps.Ideal.Laws
noncomputable section
namespace Cert.KernelIdeal.Messages
open Cert.KernelIdeal Cert.KernelIdeal.Gen Idealize.ShloMosaic Idealize.ShloMosaic.TcCoe Idealize.SL.Sem Idealize.ShloMosaic.ValueIdx
open Idealize.ShloMosaic.Pipeline (Dat)

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The dimension numbers of the block product: rows of the left operand against columns of the right. -/
abbrev blockDot := dot_S4000x128_S128x128_S4000x128_1_0_0_1_n_n

theorem lhs_row (i : S4000x128.Idx) (q : blockDot.contr.Idx) : (blockDot.lhsIdx i q 0).val = (i 0).val := by
  unfold DotDims.lhsIdx
  rw [dif_neg (show ¬(0 : Fin S4000x128.rank) ∈ blockDot.lhsBatch by decide), dif_pos (show (0 : Fin S4000x128.rank) ∈ blockDot.lhsNonContracting by decide)]
  rfl
theorem lhs_col (i : S4000x128.Idx) (q : blockDot.contr.Idx) : (blockDot.lhsIdx i q 1).val = (q ⟨0, by decide⟩).val :=
  blockDot.lhsIdx_val_of_single rfl i q
theorem rhs_row (i : S4000x128.Idx) (q : blockDot.contr.Idx) : (blockDot.rhsIdx i q 0).val = (q ⟨0, by decide⟩).val :=
  blockDot.rhsIdx_val_of_single rfl i q
theorem rhs_col (i : S4000x128.Idx) (q : blockDot.contr.Idx) : (blockDot.rhsIdx i q 1).val = (i 1).val := by
  unfold DotDims.rhsIdx
  rw [dif_neg (show ¬(1 : Fin S128x128.rank) ∈ blockDot.rhsBatch by decide), dif_pos (show (1 : Fin S128x128.rank) ∈ blockDot.rhsNonContracting by decide)]
  rfl

/-- The product of a [4000, 128] block with the [128, 128] weights, read at row `p` and feature `j`:
    the sum over the contracted axis. -/
theorem block_matmul_apply (a : FVec Ideal S4000x128 .bf16) (w : FVec Ideal S128x128 .bf16) (p : Fin 4000) (j : Fin 128) :
    matmul (F := Ideal) blockDot none a w (constant (F := Ideal) S4000x128 .f32 0x00000000#32) (ix2 p j)
      = ∑ k : Fin 128, a (ix2 p k) * w (ix2 k j) := by
  show FloatOps.matmul blockDot none a w (constant (F := Ideal) S4000x128 .f32 0x00000000#32) (ix2 p j) = _
  rw [Ideal.matmul_constant_zero_apply, ← Equiv.sum_comp (contrEquiv1 blockDot 128 rfl rfl).symm]
  refine Finset.sum_congr rfl fun k _ => ?_
  have hk := contrEquiv1_symm_val blockDot 128 rfl rfl k
  have el : blockDot.lhsIdx (ix2 p j) ((contrEquiv1 blockDot 128 rfl rfl).symm k) = ix2 p k := funext fun a => Fin.ext (by
    match a with
    | ⟨0, _⟩ => exact lhs_row _ _
    | ⟨1, _⟩ => exact (lhs_col _ _).trans hk)
  have er : blockDot.rhsIdx (ix2 p j) ((contrEquiv1 blockDot 128 rfl rfl).symm k) = ix2 k j := funext fun a => Fin.ext (by
    match a with
    | ⟨0, _⟩ => exact (rhs_row _ _).trans hk
    | ⟨1, _⟩ => exact rhs_col _ _)
  rw [el, er]

/-- The block the body stores, read at row `p` and feature `j` of the tile: the row's product with the
    weights plus the bias, times the row's send scale (rounding to bf16 is the identity over the extended reals). -/
theorem payload_apply (x0 : Vec Ideal S4000x128 .f32) (x1 : Vec Ideal S128x128 .f32) (x2 : Vec Ideal S1x128 .f32)
    (x3 : Vec Ideal S4000x1 .f32) (p : Fin 4000) (j : Fin 128) :
    k0_pay1 (F := Ideal) x0 x1 x2 x3 (ix2 p j)
      = ((∑ k : Fin 128, x0 (ix2 p k) * x1 (ix2 k j)) + x2 (ix2 (0 : Fin 1) j)) * x3 (ix2 p (0 : Fin 1)) := by
  unfold k0_pay1
  rw [truncf_apply, mulf_apply, addf_apply]
  rw [shapeCast_self, shapeCast_self]
  rw [broadcastTo_1b_ab_apply x2 broadcasts_S1x128_S4000x128 p j,
    broadcastTo_a1_ab_apply x3 broadcasts_S4000x1_S4000x128 p j]
  rw [block_matmul_apply (truncf FTy.bf16 x0 bitsLt_bf16_f32) (truncf FTy.bf16 x1 bitsLt_bf16_f32) p j]
  rfl

/-- The message at row `r` and feature `j`, from four blocks that hold, where the payload reads them, the
    arrays' entries of that row and feature. -/
theorem message_of_blocks (x : GraphLayer.Nodes.Idx → EReal) (w : GraphLayer.Weights.Idx → EReal)
    (b : GraphLayer.Row.Idx → EReal) (s : GraphLayer.Col.Idx → EReal)
    (b0 : S4000x128.Idx → EReal) (b1 : S128x128.Idx → EReal) (b2 : S1x128.Idx → EReal) (b3 : S4000x1.Idx → EReal)
    (p : Fin 4000) (r : Fin 100000) (j : Fin 128)
    (h0 : ∀ k : Fin 128, b0 (ix2 p k) = x (ix2 r k)) (h1 : ∀ k : Fin 128, b1 (ix2 k j) = w (ix2 k j))
    (h2 : b2 (ix2 (0 : Fin 1) j) = b (ix2 (0 : Fin 1) j)) (h3 : b3 (ix2 p (0 : Fin 1)) = s (ix2 r (0 : Fin 1))) :
    ((∑ k : Fin 128, b0 (ix2 p k) * b1 (ix2 k j)) + b2 (ix2 (0 : Fin 1) j)) * b3 (ix2 p (0 : Fin 1))
      = GraphLayer.message x w b s (ix2 r j) := by
  show _ = ((∑ k : Fin 128, x (ix2 r k) * w (ix2 k j)) + b (ix2 (0 : Fin 1) j)) * s (ix2 r (0 : Fin 1))
  rw [h2, h3, Finset.sum_congr rfl fun k _ => by rw [h0 k, h1 k]]

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided once over the 25 grid points: the node, send-scale and output windows are
    at block (t, 0), the weights and the bias at block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

set_option maxHeartbeats 400000 in
/-- What point `t` writes back is block `t` of the messages of the arrays as the region finds them. -/
theorem flushed_eq (c : Dev nD) (t : Fin cfg0.N) :
    (dat0 (F := Ideal) V c).flushed 4 t = ((cfg0.win 4).blk t).view.read (Elt Ideal)
      (GraphLayer.message (V c main_arg0) (V c main_arg6) (V c main_v15) (V c main_v10)) := by
  show (cfg0.win 4).cut (grid0.coords t) ((dat0 (F := Ideal) V c).after 4 t) = _
  rw [after0_4]
  unfold out0_4
  rw [View.canon_unit_zero zero_offsets]
  simp only [View.ld_unit_zero (S := S4000x128) zero_offsets, View.ld_unit_zero (S := S128x128) zero_offsets,
    View.ld_unit_zero (S := S1x128) zero_offsets, View.ld_unit_zero (S := S4000x1) zero_offsets]
  funext y
  show k0_pay1 (F := Ideal) (iblk0 V c 0 t) (iblk0 V c 1 t) (iblk0 V c 2 t) (iblk0 V c 3 t) y
     = GraphLayer.message (V c main_arg0) (V c main_arg6) (V c main_v15) (V c main_v10) (((cfg0.win 4).blk t).view.emb y)
  obtain ⟨e00, e01, e10, e11, e20, e21, e30, e31, e40, e41⟩ := block_indices t
  have ht : t.val < 25 := lt_of_lt_of_eq t.isLt N_0
  have hp : (y 0).val < 4000 := (y 0).isLt
  have hj : (y 1).val < 128 := (y 1).isLt
  obtain ⟨p, hpv⟩ : ∃ p : Fin 4000, p.val = (y 0).val := ⟨⟨_, hp⟩, rfl⟩
  obtain ⟨j, hjv⟩ : ∃ j : Fin 128, j.val = (y 1).val := ⟨⟨_, hj⟩, rfl⟩
  obtain ⟨r, hrv⟩ : ∃ r : Fin 100000, r.val = t.val * 4000 + (y 0).val := ⟨⟨_, by omega⟩, rfl⟩
  have hy : (y : S4000x128.Idx) = ix2 p j := by
    funext a; apply Fin.ext
    match a with
    | ⟨0, _⟩ => exact hpv.symm
    | ⟨1, _⟩ => exact hjv.symm
  have hemb : ((cfg0.win 4).blk t).view.emb y = ix2 r j := by
    funext a; apply Fin.ext
    match a with
    | ⟨0, _⟩ => show win0_4.index t (0 : Fin 2) * 4000 + 1 * (y 0).val = r.val; omega
    | ⟨1, _⟩ => show win0_4.index t (1 : Fin 2) * 128 + 1 * (y 1).val = j.val; omega

  refine (congrArg (k0_pay1 (F := Ideal) (iblk0 V c 0 t) (iblk0 V c 1 t) (iblk0 V c 2 t) (iblk0 V c 3 t)) hy).trans ?_
  refine (payload_apply (iblk0 V c 0 t) (iblk0 V c 1 t) (iblk0 V c 2 t) (iblk0 V c 3 t) p j).trans ?_
  refine Eq.trans ?_ (congrArg (GraphLayer.message (V c main_arg0) (V c main_arg6) (V c main_v15) (V c main_v10)) hemb).symm
  -- each input block read at the place in its array that the output's row and feature name
  have rd0 : ∀ k : Fin 128, iblk0 V c 0 t (ix2 p k) = V c main_arg0 (ix2 r k) := fun k => by
    show V c main_arg0 (((cfg0.win 0).blk t).view.emb (ix2 p k)) = _
    refine congrArg (V c main_arg0) (funext fun a => Fin.ext ?_)
    match a with
    | ⟨0, _⟩ => show win0_0.index t (0 : Fin 2) * 4000 + 1 * p.val = r.val; omega
    | ⟨1, _⟩ => show win0_0.index t (1 : Fin 2) * 128 + 1 * k.val = k.val; omega
  have rd1 : ∀ k : Fin 128, iblk0 V c 1 t (ix2 k j) = V c main_arg6 (ix2 k j) := fun k => by
    show V c main_arg6 (((cfg0.win 1).blk t).view.emb (ix2 k j)) = _
    refine congrArg (V c main_arg6) (funext fun a => Fin.ext ?_)
    match a with
    | ⟨0, _⟩ => show win0_1.index t (0 : Fin 2) * 128 + 1 * k.val = k.val; omega
    | ⟨1, _⟩ => show win0_1.index t (1 : Fin 2) * 128 + 1 * j.val = j.val; omega
  have rd2 : iblk0 V c 2 t (ix2 (0 : Fin 1) j) = V c main_v15 (ix2 (0 : Fin 1) j) := by
    show V c main_v15 (((cfg0.win 2).blk t).view.emb (ix2 (0 : Fin 1) j)) = _
    refine congrArg (V c main_v15) (funext fun a => Fin.ext ?_)
    match a with
    | ⟨0, _⟩ => show win0_2.index t (0 : Fin 2) * 1 + 1 * (0 : Fin 1).val = (0 : Fin 1).val; omega
    | ⟨1, _⟩ => show win0_2.index t (1 : Fin 2) * 128 + 1 * j.val = j.val; omega
  have rd3 : iblk0 V c 3 t (ix2 p (0 : Fin 1)) = V c main_v10 (ix2 r (0 : Fin 1)) := by
    show V c main_v10 (((cfg0.win 3).blk t).view.emb (ix2 p (0 : Fin 1))) = _
    refine congrArg (V c main_v10) (funext fun a => Fin.ext ?_)
    match a with
    | ⟨0, _⟩ => show win0_3.index t (0 : Fin 2) * 4000 + 1 * p.val = r.val; omega
    | ⟨1, _⟩ => show win0_3.index t (1 : Fin 2) * 1 + 1 * (0 : Fin 1).val = (0 : Fin 1).val; omega
  exact message_of_blocks (V c main_arg0) (V c main_arg6) (V c main_v15) (V c main_v10)
    (iblk0 V c 0 t) (iblk0 V c 1 t) (iblk0 V c 2 t) (iblk0 V c 3 t) p r j rd0 rd1 rd2 rd3

/-- An index of the array is in point `t`'s block iff each coordinate is in the block's range on its axis. -/
theorem mem_block (t : Fin cfg0.N) (i : S100000x128.Idx) :
    i ∈ ((cfg0.win 4).blk t).view.set ↔ ∀ a : Fin 2, win0_4.index t a * S4000x128.size a ≤ (i a).val
      ∧ (i a).val < win0_4.index t a * S4000x128.size a + S4000x128.size a := by
  show i ∈ ((View.whole main_v16).slice (win0_4.rect t)).set ↔ _
  rw [View.set_slice_whole, Rect.mem_set_unit]
  exact Iff.rfl

/-- Every index of the array is in some point's block: row `r` is in the block of point `r / 4000`. -/
theorem covered (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hlt : (i 0).val / 4000 < cfg0.N := lt_of_lt_of_eq (by omega : (i 0).val / 4000 < 25) N_0.symm
  obtain ⟨t, htv⟩ : ∃ t : Fin cfg0.N, t.val = (i 0).val / 4000 := ⟨⟨_, hlt⟩, rfl⟩
  obtain ⟨-, -, -, -, -, -, -, -, e40, e41⟩ := block_indices t
  refine ⟨t, flush0_4 t, ?_⟩
  rw [mem_block]
  intro a
  match a with
  | ⟨0, _⟩ =>
    show win0_4.index t (0 : Fin 2) * 4000 ≤ (i 0).val ∧ (i 0).val < win0_4.index t (0 : Fin 2) * 4000 + 4000
    omega
  | ⟨1, _⟩ =>
    show win0_4.index t (1 : Fin 2) * 128 ≤ (i 1).val ∧ (i 1).val < win0_4.index t (1 : Fin 2) * 128 + 128
    omega

/-- After region 0 the output array holds the messages of the arrays as the region finds them: at row `r` and
    feature `j`, ((∑ k, nodes(r, k) · w(k, j)) + b(0, j)) · scale(r, 0). -/
theorem messages (c : Dev nD) :
    (dat0 (F := Ideal) V c).arrAt 4 cfg0.N
      = GraphLayer.message (V c main_arg0) (V c main_arg6) (V c main_v15) (V c main_v10) :=
  (dat0 (F := Ideal) V c).arrAt_eq_of_cover 4 _ (fun t _ => flushed_eq V c t) covered

end Cert.KernelIdeal.Messages
end
-- ==== Proof.Updates.lean ====
/-
  The layer's second tiled region, over the 25 tiles of 4000 nodes.

  At tile t the body leaves, in its first output block, relu((x · w + b) + agg · s + g) + x of the tile's rows, and
  in its second output block the sum of those 4000 updated rows, feature by feature. Read index by index over the
  extended reals and carried from the blocks to the arrays: after the last grid point the first output array is
  GraphLayer.update of the region's input arrays, and the second is GraphLayer.tileSums of that.
-/
import proofs.«118042_j6605659701677_2_alg».proof.Proof.Gen.KernelIdeal.Frame
import proofs.«118042_j6605659701677_2_alg».proof.Proof.Layer
import Idealize.ShloMosaic.Lib.Pipeline.Value
import Idealize.ShloMosaic.Lib.ValueIdx
import Idealize.ShloMosaic.Lib.ValueLayout
import Idealize.ShloMosaic.PureOps.Ideal.Laws
noncomputable section
namespace Cert.KernelIdeal.Updates
open Cert.KernelIdeal Cert.KernelIdeal.Gen Idealize.ShloMosaic Idealize.ShloMosaic.TcCoe Idealize.SL.Sem Idealize.ShloMosaic.ValueIdx
open Idealize.ShloMosaic.Pipeline (Dat)
variable (V : (c : Dev nD) → (b : Ref sig .tc) → Buf (Elt Ideal) ((c : Thread nD τ).loc b))

/-- A [a, 1] column broadcast along the rows of an [a, b] array reads, at (p, c), the column at p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The tile's matrix product at an index -/

theorem lhs_row (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_contr (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_contr (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_col (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The tile's matrix product at (p, j): row p of the tile against column j of the weights. -/
theorem matmul_at (x : FVec Ideal S4000x128 .bf16) (w : FVec Ideal S128x128 .bf16) (p : Fin 4000) (j : Fin 128) :
    matmul (F := Ideal) dot_S4000x128_S128x128_S4000x128_1_0_0_1_n_n none x w (constant (F := Ideal) S4000x128 .f32 0x00000000#32) (ix2 p j)
      = ∑ k : Fin 128, x (ix2 p k) * w (ix2 k j) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p j) ((contrEquiv1 dot_S4000x128_S128x128_S4000x128_1_0_0_1_n_n 128 rfl rfl).symm k) = ix2 p k := funext fun a => Fin.ext (by
    match a with
    | ⟨0, _⟩ => exact lhs_row _ _
    | ⟨1, _⟩ => exact (lhs_contr _ _).trans hk)
  have er : dot_S4000x128_S128x128_S4000x128_1_0_0_1_n_n.rhsIdx (ix2 p j) ((contrEquiv1 dot_S4000x128_S128x128_S4000x128_1_0_0_1_n_n 128 rfl rfl).symm k) = ix2 k j := funext fun a => Fin.ext (by
    match a with
    | ⟨0, _⟩ => exact (rhs_contr _ _).trans hk
    | ⟨1, _⟩ => exact rhs_col _ _)
  rw [el, er]

/-- The updated tile at (p, j), from the tile's blocks: relu((x · w)(p, j) + b(j) + agg(p, j) · s(p) + g(j)) + x(p, j). -/
theorem tile_at (x : Vec Ideal S4000x128 .f32) (w : Vec Ideal S128x128 .f32) (b : Vec Ideal S1x128 .f32)
    (agg : Vec Ideal S4000x128 .f32) (s : Vec Ideal S4000x1 .f32) (g : Vec Ideal S1x128 .f32) (x' : Vec Ideal S4000x128 .f32)
    (p : Fin 4000) (j : Fin 128) :
    k1_pay1 (F := Ideal) x w b agg s g x' (ix2 p j)
      = max ((((∑ k : Fin 128, x (ix2 p k) * w (ix2 k j)) + b (ix2 (0 : Fin 1) j)) + agg (ix2 p j) * s (ix2 p (0 : Fin 1))) + g (ix2 (0 : Fin 1) j))
          (Ideal.ofBits .f32 0x00000000#32) + x' (ix2 p j) := by
  unfold k1_pay1
  rw [addf_apply, maximumf_apply, addf_apply, addf_apply, addf_apply, mulf_apply, broadcast_apply]
  rw [shapeCast_self, shapeCast_self, shapeCast_self, shapeCast_self]
  rw [broadcastTo_1b_ab_apply, broadcastTo_1b_ab_apply, broadcastTo_a1_ab_apply, matmul_at]
  rfl

/-! ## The printed index maps, decided over the 25 grid points -/

theorem hz2 : (![0, 0] : Fin 2 → Nat) = fun _ => 0 := funext fun a => by fin_cases a <;> rfl
theorem hz3 : (![0, 0, 0] : Fin 3 → Nat) = fun _ => 0 := funext fun a => by fin_cases a <;> rfl

/-- The row-tiled windows (aggregate, receive scale, nodes, both outputs) sit at block (t, 0); the weights, the bias
    and the global term at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 3) = t.val ∧ win1_7.index t (1 : Fin 3) = 0 ∧ win1_7.index t (2 : Fin 3) = 0 :=
  (by decide +kernel : ∀ t : Fin grid1.N, _)

/-! ## The windows' blocks at a grid point, read off the arrays -/

/-- The grid point as a tile number. -/
abbrev tileOf (t : Fin cfg1.N) : Fin 25 := t.cast N_1

theorem blk_agg (c : Dev nD) (t : Fin cfg1.N) (p : Fin 4000) (j : Fin 128) :
    iblk1 (F := Ideal) V c 0 t (ix2 p j) = V c main_v27 (ix2 (GraphLayer.tileRow (tileOf t) p) j) := by
  obtain ⟨e00, e01, -⟩ := idx_facts t
  unfold iblk1
  rw [View.read_apply]
  show V c main_v27 _ = V c main_v27 _
  refine congrArg _ (funext fun a => Fin.ext ?_)
  match a with
  | ⟨0, _⟩ => show win1_0.index t (0 : Fin 2) * 4000 + 1 * p.val = 4000 * t.val + p.val; omega
  | ⟨1, _⟩ => show win1_0.index t (1 : Fin 2) * 128 + 1 * j.val = j.val; omega

theorem blk_scale (c : Dev nD) (t : Fin cfg1.N) (p : Fin 4000) :
    iblk1 (F := Ideal) V c 1 t (ix2 p (0 : Fin 1)) = V c main_v14 (ix2 (GraphLayer.tileRow (tileOf t) p) (0 : Fin 1)) := by
  obtain ⟨-, -, e10, e11, -⟩ := idx_facts t
  unfold iblk1
  rw [View.read_apply]
  show V c main_v14 _ = V c main_v14 _
  refine congrArg _ (funext fun a => Fin.ext ?_)
  match a with
  | ⟨0, _⟩ => show win1_1.index t (0 : Fin 2) * 4000 + 1 * p.val = 4000 * t.val + p.val; omega
  | ⟨1, _⟩ => show win1_1.index t (1 : Fin 2) * 1 + 1 * 0 = 0; omega

theorem blk_nodes (c : Dev nD) (t : Fin cfg1.N) (p : Fin 4000) (j : Fin 128) :
    iblk1 (F := Ideal) V c 2 t (ix2 p j) = V c main_arg0 (ix2 (GraphLayer.tileRow (tileOf t) p) j) := by
  obtain ⟨-, -, -, -, e20, e21, -⟩ := idx_facts t
  unfold iblk1
  rw [View.read_apply]
  show V c main_arg0 _ = V c main_arg0 _
  refine congrArg _ (funext fun a => Fin.ext ?_)
  match a with
  | ⟨0, _⟩ => show win1_2.index t (0 : Fin 2) * 4000 + 1 * p.val = 4000 * t.val + p.val; omega
  | ⟨1, _⟩ => show win1_2.index t (1 : Fin 2) * 128 + 1 * j.val = j.val; omega

theorem blk_global (c : Dev nD) (t : Fin cfg1.N) (j : Fin 128) :
    iblk1 (F := Ideal) V c 3 t (ix2 (0 : Fin 1) j) = V c main_v30 (ix2 (0 : Fin 1) j) := by
  obtain ⟨-, -, -, -, -, -, e30, e31, -⟩ := idx_facts t
  unfold iblk1
  rw [View.read_apply]
  show V c main_v30 _ = V c main_v30 _
  refine congrArg _ (funext fun a => Fin.ext ?_)
  match a with
  | ⟨0, _⟩ => show win1_3.index t (0 : Fin 2) * 1 + 1 * 0 = 0; omega
  | ⟨1, _⟩ => show win1_3.index t (1 : Fin 2) * 128 + 1 * j.val = j.val; omega

theorem blk_weights (c : Dev nD) (t : Fin cfg1.N) (k j : Fin 128) :
    iblk1 (F := Ideal) V c 4 t (ix2 k j) = V c main_arg4 (ix2 k j) := by
  obtain ⟨-, -, -, -, -, -, -, -, e40, e41, -⟩ := idx_facts t
  unfold iblk1
  rw [View.read_apply]
  show V c main_arg4 _ = V c main_arg4 _
  refine congrArg _ (funext fun a => Fin.ext ?_)
  match a with
  | ⟨0, _⟩ => show win1_4.index t (0 : Fin 2) * 128 + 1 * k.val = k.val; omega
  | ⟨1, _⟩ => show win1_4.index t (1 : Fin 2) * 128 + 1 * j.val = j.val; omega

theorem blk_bias (c : Dev nD) (t : Fin cfg1.N) (j : Fin 128) :
    iblk1 (F := Ideal) V c 5 t (ix2 (0 : Fin 1) j) = V c main_v31 (ix2 (0 : Fin 1) j) := by
  obtain ⟨-, -, -, -, -, -, -, -, -, -, e50, e51, -⟩ := idx_facts t
  unfold iblk1
  rw [View.read_apply]
  show V c main_v31 _ = V c main_v31 _
  refine congrArg _ (funext fun a => Fin.ext ?_)
  match a with
  | ⟨0, _⟩ => show win1_5.index t (0 : Fin 2) * 1 + 1 * 0 = 0; omega
  | ⟨1, _⟩ => show win1_5.index t (1 : Fin 2) * 128 + 1 * j.val = j.val; omega

/-- Tile t's updated block at (p, j) is the updated node 4000·t + p at feature j. -/
theorem tile_update (c : Dev nD) (t : Fin cfg1.N) (p : Fin 4000) (j : Fin 128) :
    k1_pay1 (F := Ideal) (iblk1 V c 2 t) (iblk1 V c 4 t) (iblk1 V c 5 t) (iblk1 V c 0 t) (iblk1 V c 1 t) (iblk1 V c 3 t) (iblk1 V c 2 t) (ix2 p j)
      = GraphLayer.update (V c main_v27) (V c main_v14) (V c main_arg0) (V c main_v30) (V c main_arg4) (V c main_v31)
          (ix2 (GraphLayer.tileRow (tileOf t) p) j) := by
  refine (tile_at _ _ _ _ _ _ _ p j).trans ?_
  rw [blk_bias V c t j, blk_agg V c t p j, blk_scale V c t p, blk_global V c t j, blk_nodes V c t p j]
  rw [Finset.sum_congr rfl (fun k _ => by rw [blk_nodes V c t p k, blk_weights V c t k j])]
  rfl

/-! ## The updated nodes: what each grid point writes back, and the whole array -/

/-- Tile t's output block sits at rows 4000·t … 4000·t + 3999 of the output array. -/
theorem out_emb (t : Fin cfg1.N) (p : Fin 4000) (j : Fin 128) :
    ((cfg1.win 6).blk t).view.emb (ix2 p j) = (ix2 (GraphLayer.tileRow (tileOf t) p) j : S100000x128.Idx) := by
  have e := idx_facts t
  obtain ⟨e60, e61⟩ := e.2.2.2.2.2.2.2.2.2.2.2.2
  refine funext fun a => Fin.ext ?_
  match a with
  | ⟨0, _⟩ => show win1_6.index t (0 : Fin 2) * 4000 + 1 * p.val = 4000 * t.val + p.val; omega
  | ⟨1, _⟩ => show win1_6.index t (1 : Fin 2) * 128 + 1 * j.val = j.val; omega

/-- What grid point t writes back to the updated-nodes array is block t of the layer's update. -/
theorem flushed_updated (c : Dev nD) (t : Fin cfg1.N) :
    (dat1 (F := Ideal) V c).flushed 6 t = ((cfg1.win 6).blk t).view.read (Elt Ideal)
      (GraphLayer.update (V c main_v27) (V c main_v14) (V c main_arg0) (V c main_v30) (V c main_arg4) (V c main_v31)) := by
  show (cfg1.win 6).cut (grid1.coords t) ((dat1 (F := Ideal) V c).after 6 t) = _
  rw [after1_6]
  unfold out1_6
  rw [View.canon_unit_zero hz2]
  simp only [View.ld_unit_zero (S := S4000x128) hz2, View.ld_unit_zero (S := S128x128) hz2, View.ld_unit_zero (S := S1x128) hz2, View.ld_unit_zero (S := S4000x1) hz2]
  funext y
  obtain ⟨p, j, rfl⟩ : ∃ (p : Fin 4000) (j : Fin 128), y = (ix2 p j : S4000x128.Idx) := ⟨y 0, y 1, eq_ix2 (n0 := 4000) (n1 := 128) y⟩
  refine (tile_update V c t p j).trans ?_
  show _ = GraphLayer.update (V c main_v27) (V c main_v14) (V c main_arg0) (V c main_v30) (V c main_arg4) (V c main_v31) (((cfg1.win 6).blk t).view.emb (ix2 p j))
  rw [out_emb]

/-- A node index is in point t's block iff each coordinate is in the block's range on its axis. -/
theorem mem_blk_updated (t : Fin cfg1.N) (i : S100000x128.Idx) :
    i ∈ ((cfg1.win 6).blk t).view.set ↔ ∀ a : Fin 2, win1_6.index t a * S4000x128.size a ≤ (i a).val ∧ (i a).val < win1_6.index t a * S4000x128.size a + S4000x128.size a := by
  show i ∈ ((View.whole main_v32_0).slice (win1_6.rect t)).set ↔ _
  rw [View.set_slice_whole, Rect.mem_set_unit]
  exact Iff.rfl

/-- Every node row r lies in the block of tile r / 4000. -/
theorem cover_updated (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  let t : Fin cfg1.N := Fin.cast N_1.symm ⟨(i 0).val / 4000, by omega⟩
  have ht : t.val = (i 0).val / 4000 := rfl
  have e := idx_facts t
  obtain ⟨e60, e61⟩ := e.2.2.2.2.2.2.2.2.2.2.2.2
  refine ⟨t, flush1_6 t, ?_⟩
  rw [mem_blk_updated]
  intro a
  match a with
  | ⟨0, _⟩ => show win1_6.index t (0 : Fin 2) * 4000 ≤ (i 0).val ∧ (i 0).val < win1_6.index t (0 : Fin 2) * 4000 + 4000; omega
  | ⟨1, _⟩ => show win1_6.index t (1 : Fin 2) * 128 ≤ (i 1).val ∧ (i 1).val < win1_6.index t (1 : Fin 2) * 128 + 128; omega

/-- After the 25 grid points the output array holds the layer's updated nodes. -/
theorem updated (c : Dev nD) :
    (dat1 (F := Ideal) V c).arrAt 6 cfg1.N = GraphLayer.update (V c main_v27) (V c main_v14) (V c main_arg0) (V c main_v30) (V c main_arg4) (V c main_v31) :=
  (dat1 (F := Ideal) V c).arrAt_eq_of_cover 6 _ (fun t _ => flushed_updated V c t) cover_updated

/-! ## The tile sums: what each grid point writes back, and the whole array -/

/-- The second output block at (u, v, j) is the sum over the tile's 4000 rows of the updated tile at feature j. -/
theorem sums_at (x : Vec Ideal S4000x128 .f32) (w : Vec Ideal S128x128 .f32) (b : Vec Ideal S1x128 .f32)
    (agg : Vec Ideal S4000x128 .f32) (s : Vec Ideal S4000x1 .f32) (g : Vec Ideal S1x128 .f32) (x' : Vec Ideal S4000x128 .f32)
    (u v : Fin 1) (j : Fin 128) :
    k1_pay2 (F := Ideal) x w b agg s g x' (ix3 u v j) = ∑ q : Fin 4000, k1_pay1 (F := Ideal) x w b agg s g x' (ix2 q j) := by
  unfold k1_pay2
  rw [shapeCast_ab_1ab_apply, shapeCast_a_1a_apply]
  refine (Ideal.multiReduction_add_single (k1_pay1 (F := Ideal) x w b agg s g x') 0x00000000#32 reduces_S4000x128_S128 (.inl rfl) rfl (ix1 j)).trans ?_
  show ∑ q : Fin 4000, k1_pay1 (F := Ideal) x w b agg s g x' (reduces_S4000x128_S128.lift (ix1 j) q) = _
  refine Finset.sum_congr rfl fun q _ => congrArg _ (funext fun a => Fin.ext ?_)
  match a with
  | ⟨0, _⟩ => rfl
  | ⟨1, _⟩ => rfl

/-- Tile t's block of sums sits at row t of the [25, 1, 128] array. -/
theorem sums_emb (t : Fin cfg1.N) (u v : Fin 1) (j : Fin 128) :
    ((cfg1.win 7).blk t).view.emb (ix3 u v j) = (ix3 (tileOf t) (0 : Fin 1) j : S25x1x128.Idx) := by
  have e := idx_facts t
  obtain ⟨e70, e71, e72⟩ := e.2.2.2.2.2.2.2.2.2.2.2.2.2.2
  have hu : u.val = 0 := by omega
  have hv : v.val = 0 := by omega
  refine funext fun a => Fin.ext ?_
  match a with
  | ⟨0, _⟩ => show win1_7.index t (0 : Fin 3) * 1 + 1 * u.val = t.val; omega
  | ⟨1, _⟩ => show win1_7.index t (1 : Fin 3) * 1 + 1 * v.val = 0; omega
  | ⟨2, _⟩ => show win1_7.index t (2 : Fin 3) * 128 + 1 * j.val = j.val; omega

/-- What grid point t writes back to the tile-sums array is block t of the sums of the layer's update. -/
theorem flushed_partials (c : Dev nD) (t : Fin cfg1.N) :
    (dat1 (F := Ideal) V c).flushed 7 t = ((cfg1.win 7).blk t).view.read (Elt Ideal)
      (GraphLayer.tileSums (GraphLayer.update (V c main_v27) (V c main_v14) (V c main_arg0) (V c main_v30) (V c main_arg4) (V c main_v31))) := by
  show (cfg1.win 7).cut (grid1.coords t) ((dat1 (F := Ideal) V c).after 7 t) = _
  rw [after1_7]
  unfold out1_7
  rw [View.canon_unit_zero hz3]
  simp only [View.ld_unit_zero (S := S4000x128) hz2, View.ld_unit_zero (S := S128x128) hz2, View.ld_unit_zero (S := S1x128) hz2, View.ld_unit_zero (S := S4000x1) hz2]
  funext y
  obtain ⟨u, v, j, rfl⟩ : ∃ (u v : Fin 1) (j : Fin 128), y = (ix3 u v j : S1x1x128.Idx) := ⟨y 0, y 1, y 2, eq_ix3 (n0 := 1) (n1 := 1) (n2 := 128) y⟩
  refine (sums_at _ _ _ _ _ _ _ u v j).trans ?_
  show _ = GraphLayer.tileSums (GraphLayer.update (V c main_v27) (V c main_v14) (V c main_arg0) (V c main_v30) (V c main_arg4) (V c main_v31)) (((cfg1.win 7).blk t).view.emb (ix3 u v j))
  rw [sums_emb]
  show _ = ∑ q : Fin 4000, GraphLayer.update (V c main_v27) (V c main_v14) (V c main_arg0) (V c main_v30) (V c main_arg4) (V c main_v31) (ix2 (GraphLayer.tileRow (tileOf t) q) j)
  exact Finset.sum_congr rfl fun q _ => tile_update V c t q j

/-- An index of the tile-sums array is in point t's block iff each coordinate is in the block's range on its axis. -/
theorem mem_blk_partials (t : Fin cfg1.N) (i : S25x1x128.Idx) :
    i ∈ ((cfg1.win 7).blk t).view.set ↔ ∀ a : Fin 3, win1_7.index t a * S1x1x128.size a ≤ (i a).val ∧ (i a).val < win1_7.index t a * S1x1x128.size a + S1x1x128.size a := by
  show i ∈ ((View.whole main_v32_1).slice (win1_7.rect t)).set ↔ _
  rw [View.set_slice_whole, Rect.mem_set_unit]
  exact Iff.rfl

/-- Row r of the tile-sums array is the block of tile r. -/
theorem cover_partials (i : S25x1x128.Idx) :
    ∃ t : Fin cfg1.N, (cfg1.win 7).flush t = true ∧ i ∈ ((cfg1.win 7).blk t).view.set := by
  have hi0 : (i 0).val < 25 := (i 0).isLt
  have hi1 : (i 1).val < 1 := (i 1).isLt
  have hi2 : (i 2).val < 128 := (i 2).isLt
  let t : Fin cfg1.N := Fin.cast N_1.symm ⟨(i 0).val, hi0⟩
  have ht : t.val = (i 0).val := rfl
  have e := idx_facts t
  obtain ⟨e70, e71, e72⟩ := e.2.2.2.2.2.2.2.2.2.2.2.2.2.2
  refine ⟨t, flush1_7 t, ?_⟩
  rw [mem_blk_partials]
  intro a
  match a with
  | ⟨0, _⟩ => show win1_7.index t (0 : Fin 3) * 1 ≤ (i 0).val ∧ (i 0).val < win1_7.index t (0 : Fin 3) * 1 + 1; omega
  | ⟨1, _⟩ => show win1_7.index t (1 : Fin 3) * 1 ≤ (i 1).val ∧ (i 1).val < win1_7.index t (1 : Fin 3) * 1 + 1; omega
  | ⟨2, _⟩ => show win1_7.index t (2 : Fin 3) * 128 ≤ (i 2).val ∧ (i 2).val < win1_7.index t (2 : Fin 3) * 128 + 128; omega

/-- After the 25 grid points the second output array holds each tile's sum of its updated nodes. -/
theorem partials (c : Dev nD) :
    (dat1 (F := Ideal) V c).arrAt 7 cfg1.N = GraphLayer.tileSums (GraphLayer.update (V c main_v27) (V c main_v14) (V c main_arg0) (V c main_v30) (V c main_arg4) (V c main_v31)) :=
  (dat1 (F := Ideal) V c).arrAt_eq_of_cover 7 _ (fun t _ => flushed_partials V c t) cover_partials

end Cert.KernelIdeal.Updates
end
-- ==== Proof.Results.lean ====
/-
  The layer's two results as functions of the argument arrays.

  The boundaries' contents are followed through the line of segments: the first region's output array is the messages
  of what it finds at entry — the nodes, the second weights, their bias as a row, the send scales —, the host stretch
  after it gathers and scatter-adds them into the aggregate, the second region's two output arrays are the updated nodes
  and their tile sums of what it finds at entry, and the last stretches turn the tile sums into the updated globals.
-/
import proofs.«118042_j6605659701677_2_alg».proof.Proof.Bridge
import proofs.«118042_j6605659701677_2_alg».proof.Proof.Messages
import proofs.«118042_j6605659701677_2_alg».proof.Proof.Updates

set_option maxRecDepth 16384

noncomputable section

namespace Cert.KernelIdeal.Whole

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- After the first region its output array holds the messages. -/
theorem messages_array : W2 m ρ c (Proc.devRef .tc main_v16)
    = GraphLayer.message (m ((c : Thread nD τ).loc main_arg0)) (m ((c : Thread nD τ).loc main_arg6)) (rowOf (m ((c : Thread nD τ).loc main_arg7))) (degreeScale (m ((c : Thread nD τ).loc main_arg2))) :=
  (W2_arr m ρ c 4).trans ((Cert.KernelIdeal.Messages.messages (V1 m ρ) c).trans (by
    rw [in0_nodes m ρ c, in0_weights m ρ c, in0_bias m ρ c, in0_scale m ρ c]))

/-- After the second region its first output array holds the updated nodes. -/
theorem nodes_array : W4 m ρ c (Proc.devRef .tc main_v32_0) = Cert.Layer.newNodes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W4_arr m ρ c 6).trans ((Cert.KernelIdeal.Updates.updated (V3 m ρ) c).trans (by
    rw [in1_aggregate m ρ c, in1_scale m ρ c, in1_nodes m ρ c, in1_global m ρ c, in1_weights m ρ c, in1_bias m ρ c,
      messages_array m ρ c]
    rfl))

/-- … and its second output array their 25 tile sums. -/
theorem sums_array : W4 m ρ c (Proc.devRef .tc main_v32_1) = GraphLayer.tileSums (Cert.Layer.newNodes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :=
  (W4_arr m ρ c 7).trans ((Cert.KernelIdeal.Updates.partials (V3 m ρ) c).trans (by
    rw [in1_aggregate m ρ c, in1_scale m ρ c, in1_nodes m ρ c, in1_global m ρ c, in1_weights m ρ c, in1_bias m ρ c,
      messages_array m ρ c]
    rfl))

/-- The first result: the updated nodes. -/
theorem result_nodes : W7 m ρ c (Proc.devRef .tc main_v32_0) = Cert.Layer.newNodes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (out_nodes m ρ c).trans (nodes_array m ρ c)

/-- The second result: the updated globals. -/
theorem result_globals : W7 m ρ c (Proc.devRef .tc main_v41) = Cert.Layer.newGlobals (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (out_globals m ρ c).trans (by rw [sums_array m ρ c]; rfl)

/-- The layer's run: it terminates without a fault with the updated nodes and the updated globals in its two result
    buffers and the twelve arguments unchanged. -/
theorem run : θ_run defs (onTc (τ := τ) (main (F := Ideal))) ⟨m, fun _ => 0, ρ⟩ (fun r => ∀ c : Dev nD,
      r.2.mem ((c.tc : Thread nD τ).loc main_v32_0) = Cert.Layer.newNodes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_v41) = Cert.Layer.newGlobals (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_v32_0 (by decide))).trans (result_nodes m ρ c),
     (h c _ (mem_uc main_v41 (by decide))).trans (result_globals m ρ c),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c),
     (h c _ (mem_uc main_arg11 (by decide))).trans (W7_main_arg11 m ρ c)⟩)
    (run_all m ρ)

end Cert.KernelIdeal.Whole

end
-- ==== Proof.lean ====
/-
  One graph-convolution layer on 100000 nodes of 128 features and 640000 edges, computed by two tiled regions among host
  operations, against its plain reference: the frames, and the equality of the two results over the extended reals.

  The three programs run and leave their twelve arguments unchanged. The idealized tiled program ends with the updated
  nodes and the updated globals as functions of the arguments (its run is followed boundary by boundary, the two regions'
  output arrays read tile by tile); the reference ends with the same two functions: they differ only in the layout of a
  bias or a scale and in the grouping of the sum over the nodes, 25 tiles of 4000 rows against all 100000 rows at once,
  which commutativity and associativity of the addition settle. The ideal pass rewrote nothing, so there is nothing to
  preserve beyond the program's own text.
-/
import proofs.«118042_j6605659701677_2_alg».proof.Defs
import proofs.«118042_j6605659701677_2_alg».proof.Proof.Gen.Kernel
import proofs.«118042_j6605659701677_2_alg».proof.Proof.Gen.Kernel.Skeleton
import proofs.«118042_j6605659701677_2_alg».proof.Proof.Gen.Kernel.Launch
import proofs.«118042_j6605659701677_2_alg».proof.Proof.Gen.Kernel.Points
import proofs.«118042_j6605659701677_2_alg».proof.Proof.Gen.Kernel.Frame
import proofs.«118042_j6605659701677_2_alg».proof.Proof.Gen.KernelIdeal
import proofs.«118042_j6605659701677_2_alg».proof.Proof.Gen.KernelIdeal.Skeleton
import proofs.«118042_j6605659701677_2_alg».proof.Proof.Gen.KernelIdeal.Launch
import proofs.«118042_j6605659701677_2_alg».proof.Proof.Gen.KernelIdeal.Points
import proofs.«118042_j6605659701677_2_alg».proof.Proof.Gen.KernelIdeal.Frame
import proofs.«118042_j6605659701677_2_alg».proof.Proof.Gen.ReferenceIdeal
import proofs.«118042_j6605659701677_2_alg».proof.Proof.Gen.ReferenceIdeal.Run
import proofs.«118042_j6605659701677_2_alg».proof.Proof.Gen.ReferenceIdeal.Read
import proofs.«118042_j6605659701677_2_alg».proof.Proof.Gen.Pre_finite_inputs
import proofs.«118042_j6605659701677_2_alg».proof.Proof.Results
import Idealize.ShloMosaic.Adequacy
import Idealize.ShloMosaic.Init

noncomputable section

namespace Cert.Proof

open Idealize.ShloMosaic Idealize.SL.Sem

/-- The word-level tiled program runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments unchanged: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the arguments, the tiled layer and the reference end with the same updated nodes and
    the same updated globals. -/
theorem algebraic : Cert.algebraic_KernelIdeal_ReferenceIdeal := by
  intro m ρ m' ρ' _ hagree
  refine ⟨fun c => Cert.Layer.newNodes (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.Layer.newGlobals (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    Cert.KernelIdeal.Whole.run m ρ, ?_⟩
  refine (θ_run Cert.ReferenceIdeal.defs _ _).mono (fun _ h c => ?_) (Cert.ReferenceIdeal.Value.run (F := Ideal) m' ρ')
  obtain ⟨h0, h1, hrest⟩ := h c
  obtain ⟨e0, e1, e2, e3, e4, e5, e6, e7, e8, e9, e10, e11⟩ := hagree c
  refine ⟨h0.trans ?_, h1.trans ?_, hrest⟩
  · rw [e0, e1, e2, e3, e4, e5, e6, e7, e8, e9]
    exact (Cert.ReferenceIdeal.Read.val_main_v44_eq _ _ _ _ _ _ _ _ _ _).trans (Cert.Layer.nodes_agree _ _ _ _ _ _ _ _ _ _).symm
  · rw [e0, e1, e2, e3, e4, e5, e6, e7, e8, e9, e10, e11]
    exact (Cert.ReferenceIdeal.Read.val_main_v52_eq _ _ _ _ _ _ _ _ _ _ _ _).trans (Cert.Layer.globals_agree _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
